-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x512 : Shape := ⟨4, ![16, 64, 64, 512]⟩
abbrev S16x512 : Shape := ⟨2, ![16, 512]⟩
abbrev S512x512 : Shape := ⟨2, ![512, 512]⟩
abbrev S_ : Shape := ⟨0, ![]⟩

class Facts : Prop where
  bcast_S_S16x64x64x512 : S_.BroadcastsInDim S16x64x64x512 (![] : Fin 0 → Fin S16x64x64x512.rank)
  reducesTo_S16x64x64x512_S_d0_1_2_3 : S16x64x64x512.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S16x64x64x512 .f32) (main_arg1 : FVec F S16x512 .f32) (main_arg2 : FVec F S512x512 .f32) : IVec S_ 1 :=
  let main_v0 : FVec F S16x64x64x512 .f32 := Host.absf main_arg0
  let main_cst : FVec F S_ .f32 := constant S_ .f32 0x7F800000#32
  let main_v1 : FVec F S16x64x64x512 .f32 := broadcastInDim S16x64x64x512 ![] bcast_S_S16x64x64x512 main_cst
  let main_v2 : IVec S16x64x64x512 1 := cmpf .olt main_v0 main_v1
  let main_c : IVec S_ 1 := constantI S_ 1 1#1
  let main_v3 : IVec S_ 1 := (fun x v => Host.reduce IntOp.andi x v reducesTo_S16x64x64x512_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S16x64x64x512 : Shape := ⟨4, ![16, 64, 64, 512]⟩
abbrev S16x512 : Shape := ⟨2, ![16, 512]⟩
abbrev S512x512 : Shape := ⟨2, ![512, 512]⟩
abbrev S16x1x512 : Shape := ⟨3, ![16, 1, 512]⟩
abbrev S16x4096x512 : Shape := ⟨3, ![16, 4096, 512]⟩
abbrev S1x1x512 : Shape := ⟨3, ![1, 1, 512]⟩
abbrev S1x2048x512 : Shape := ⟨3, ![1, 2048, 512]⟩
abbrev S1x2048 : Shape := ⟨2, ![1, 2048]⟩
abbrev S1x2048x1 : Shape := ⟨3, ![1, 2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S16x64x64x512, .f32⟩
  | .hbm, ⟨1, _⟩ => ⟨S16x512, .f32⟩
  | .hbm, ⟨2, _⟩ => ⟨S512x512, .f32⟩
  | .hbm, ⟨3, _⟩ => ⟨S16x512, .f32⟩
  | .hbm, ⟨4, _⟩ => ⟨S16x1x512, .f32⟩
  | .hbm, ⟨5, _⟩ => ⟨S16x4096x512, .f32⟩
  | .hbm, ⟨6, _⟩ => ⟨S16x4096x512, .f32⟩
  | .hbm, ⟨7, _⟩ => ⟨S16x64x64x512, .f32⟩
  | .local _ .vmem, ⟨0, _⟩ => ⟨S1x1x512, .f32⟩
  | .local _ .vmem, ⟨1, _⟩ => ⟨S1x1x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | _, _ => ⟨S16x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x512_S16x1x512 : S16x512.ShapeCasts S16x1x512
  shapeCasts_S16x64x64x512_S16x4096x512 : S16x64x64x512.ShapeCasts S16x4096x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S1x2048x512 : S1x2048x512.ShapeCasts S1x2048x512
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  broadcasts_S1x1x512_S1x2048x512 : S1x1x512.Broadcasts S1x2048x512
  reduces_S1x2048x512_S1x2048 : S1x2048x512.Reduces [2] S1x2048
  shapeCasts_S1x2048_S1x2048x1 : S1x2048.ShapeCasts S1x2048x1
  broadcasts_S1x2048x1_S1x2048x512 : S1x2048x1.Broadcasts S1x2048x512
  shapeCasts_S16x4096x512_S16x64x64x512 : S16x4096x512.ShapeCasts S16x64x64x512
  dot_S16x512_S512x512_S16x512_1_0_0_1_n_n_wf : DotDims.WF S16x512 S512x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S16x1x512.size a
  hwx0_0 : ∀ i : grid0.Coords, EltTy.bits .f32 = 32 ∨ (Rect.block (s := S16x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S16x4096x512.size a
  hwx0_1 : ∀ i : grid0.Coords, EltTy.bits .f32 = 32 ∨ (Rect.block (s := S16x4096x512) S1x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S16x4096x512.size a
  hwx0_2 : ∀ i : grid0.Coords, EltTy.bits .f32 = 32 ∨ (Rect.block (s := S16x4096x512) S1x2048x512.size (cc0_transform_2 i) (hinb0_2 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

abbrev win0_0 : Pipeline.Window sig grid0 :=
  Pipeline.Window.ofSpec (Memref.whole main_v1) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x512 : Shape := ⟨4, ![16, 64, 64, 512]⟩
abbrev S16x512 : Shape := ⟨2, ![16, 512]⟩
abbrev S512x512 : Shape := ⟨2, ![512, 512]⟩
abbrev S16x1x1x512 : Shape := ⟨4, ![16, 1, 1, 512]⟩
abbrev S_ : Shape := ⟨0, ![]⟩
abbrev S16x64x64 : Shape := ⟨3, ![16, 64, 64]⟩
abbrev S16x64x64x1 : Shape := ⟨4, ![16, 64, 64, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x64x64x512, .f32⟩
  | .hbm, ⟨1, _⟩ => ⟨S16x512, .f32⟩
  | .hbm, ⟨2, _⟩ => ⟨S512x512, .f32⟩
  | .hbm, ⟨3, _⟩ => ⟨S16x512, .f32⟩
  | .hbm, ⟨4, _⟩ => ⟨S16x1x1x512, .f32⟩
  | .hbm, ⟨5, _⟩ => ⟨S16x64x64x512, .f32⟩
  | .hbm, ⟨6, _⟩ => ⟨S16x64x64x512, .f32⟩
  | .hbm, ⟨7, _⟩ => ⟨S_, .f32⟩
  | .hbm, ⟨8, _⟩ => ⟨S16x64x64, .f32⟩
  | .hbm, ⟨9, _⟩ => ⟨S_, .f32⟩
  | .hbm, ⟨10, _⟩ => ⟨S16x64x64, .f32⟩
  | .hbm, ⟨11, _⟩ => ⟨S16x64x64, .f32⟩
  | .hbm, ⟨12, _⟩ => ⟨S16x64x64x1, .f32⟩
  | .hbm, ⟨13, _⟩ => ⟨S16x64x64x512, .f32⟩
  | .hbm, ⟨14, _⟩ => ⟨S16x64x64x512, .f32⟩
  | .hbm, ⟨15, _⟩ => ⟨S16x64x64x512, .f32⟩
  | .hbm, ⟨16, _⟩ => ⟨S_, .f32⟩
  | .hbm, ⟨17, _⟩ => ⟨S16x64x64, .f32⟩
  | .hbm, ⟨18, _⟩ => ⟨S16x64x64x1, .f32⟩
  | .hbm, ⟨19, _⟩ => ⟨S16x64x64x512, .f32⟩
  | .hbm, ⟨20, _⟩ => ⟨S16x64x64x512, .f32⟩
  | .hbm, ⟨21, _⟩ => ⟨S16x64x64x512, .f32⟩
  | _, _ => ⟨S16x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S16x512_S16x1x1x512_0_3 : S16x512.BroadcastsInDim S16x1x1x512 (![0, 3] : Fin 2 → Fin S16x1x1x512.rank)
  bcast_S16x1x1x512_S16x64x64x512_0_1_2_3 : S16x1x1x512.BroadcastsInDim S16x64x64x512 (![0, 1, 2, 3] : Fin 4 → Fin S16x64x64x512.rank)
  reducesTo_S16x64x64x512_S16x64x64_d3 : S16x64x64x512.ReducesTo [3] S16x64x64
  h_S_ : 0 < S_.numel
  bcast_S_S16x64x64 : S_.BroadcastsInDim S16x64x64 (![] : Fin 0 → Fin S16x64x64.rank)
  bcast_S16x64x64_S16x64x64x1_0_1_2 : S16x64x64.BroadcastsInDim S16x64x64x1 (![0, 1, 2] : Fin 3 → Fin S16x64x64x1.rank)
  bcast_S16x64x64x1_S16x64x64x512_0_1_2_3 : S16x64x64x1.BroadcastsInDim S16x64x64x512 (![0, 1, 2, 3] : Fin 4 → Fin S16x64x64x512.rank)
  dot_S16x512_S512x512_S16x512_1_0_0_1_n_n_wf : DotDims.WF S16x512 S512x512 S16x512 [1] [0] [0] [1] [] []

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

class Facts : Prop extends Facts₀ where

variable [Facts]
-- ==== Proof.SoftmaxRow.lean ====
/-
  One row of channel attention, on the extended reals. Over the 512 channels of a pixel, with scores
  `s k` and values `x k`: the greatest score `M` (a fold of `max` from the f32 pattern of −∞), the
  shifted exponentials `e k = exp (s k − M)`, their sum `L`, and the output `(e d / L) · x d`.
  Both programs compute exactly this chain, operation for operation; the reference takes one more
  `max` of the fold with −∞, which changes nothing because the fold already starts from −∞
  (`max_init_rowMax`), and starts its sum from the zero pattern, which adds nothing (`zero_add_rowSum`).
  The whole arrays: a pixel is (b, h, w) in the reference's [16, 64, 64, 512] layout and (b, r), r = 64·h + w,
  in the kernel's [16, 4096, 512] layout; the score of channel k there is `q[b, k] · x[pixel, k]`.
-/
import Idealize.ShloMosaic.PureOps.Ideal
import Idealize.ShloMosaic.PureOps.Ideal.Laws
import Idealize.ShloMosaic.Lib.ValueIdx
import Mathlib.Data.Finset.Fold

noncomputable section

open scoped BigOperators

namespace Cert.SoftmaxRow

open Idealize.ShloMosaic Idealize.ShloMosaic.ValueIdx

/-- The greatest score of a row: `max` folded over the channels from the f32 pattern of −∞. -/
def rowMax (s : Fin 512 → EReal) : EReal :=
  (Finset.univ : Finset (Fin 512)).fold max (Ideal.ofBits .f32 0xFF800000#32) s

/-- The exponential of a score shifted by the row's greatest score. -/
def rowExp (s : Fin 512 → EReal) (k : Fin 512) : EReal := Ideal.exp (s k - rowMax s)

/-- The row's normalizer: the sum of the shifted exponentials. -/
def rowSum (s : Fin 512 → EReal) : EReal := ∑ k : Fin 512, rowExp s k

/-- One output element: the softmax weight of channel `d` times the value there. -/
def rowAttn (s x : Fin 512 → EReal) (d : Fin 512) : EReal :=
  Ideal.div (rowExp s d) (rowSum s) * x d

/-- A fold of `max` that starts from −∞'s pattern is at least that pattern, so one more `max` with it is idle. -/
theorem max_init_rowMax (s : Fin 512 → EReal) :
    max (Ideal.ofBits .f32 0xFF800000#32) (rowMax s) = rowMax s :=
  max_eq_right ((Finset.le_fold_max _).mpr (Or.inl le_rfl))

/-- A sum started from the zero pattern is the sum. -/
theorem zero_add_rowSum (s : Fin 512 → EReal) :
    Ideal.ofBits .f32 0x00000000#32 + ∑ k : Fin 512, rowExp s k = rowSum s := by
  rw [Ideal.ofBits_zero_f32, zero_add]; rfl

/-- Rows with equal scores and equal values have equal outputs. -/
theorem rowAttn_congr {s s' x x' : Fin 512 → EReal} (hs : ∀ k, s k = s' k) (hx : ∀ k, x k = x' k) (d : Fin 512) :
    rowAttn s x d = rowAttn s' x' d := by
  rw [show s = s' from funext hs, show x = x' from funext hx]

/-- The output at pixel (b, h, w), channel d, from the per-batch weights `q` [16, 512] and the image `x`
    [16, 64, 64, 512]. -/
def attnAt (q : (⟨2, ![16, 512]⟩ : Shape).Idx → EReal) (x : (⟨4, ![16, 64, 64, 512]⟩ : Shape).Idx → EReal)
    (b : Fin 16) (h w : Fin 64) (d : Fin 512) : EReal :=
  rowAttn (fun k => q (ix2 b k) * x (ix4 b h w k)) (fun k => x (ix4 b h w k)) d

/-- The whole output array in the reference's layout. -/
def attn4 (q : (⟨2, ![16, 512]⟩ : Shape).Idx → EReal) (x : (⟨4, ![16, 64, 64, 512]⟩ : Shape).Idx → EReal) :
    (⟨4, ![16, 64, 64, 512]⟩ : Shape).Idx → EReal :=
  fun i => attnAt q x (i 0) (i 1) (i 2) (i 3)

/-- The same in the kernel's layout: pixel (b, r) of a [16, 4096, 512] image, weights kept as [16, 1, 512]. -/
def attn3At (q : (⟨3, ![16, 1, 512]⟩ : Shape).Idx → EReal) (x : (⟨3, ![16, 4096, 512]⟩ : Shape).Idx → EReal)
    (b : Fin 16) (r : Fin 4096) (d : Fin 512) : EReal :=
  rowAttn (fun k => q (ix3 b (0 : Fin 1) k) * x (ix3 b r k)) (fun k => x (ix3 b r k)) d

/-- The whole output array in the kernel's layout. -/
def attn3 (q : (⟨3, ![16, 1, 512]⟩ : Shape).Idx → EReal) (x : (⟨3, ![16, 4096, 512]⟩ : Shape).Idx → EReal) :
    (⟨3, ![16, 4096, 512]⟩ : Shape).Idx → EReal :=
  fun i => attn3At q x (i 0) (i 1) (i 2)

end Cert.SoftmaxRow

end
-- ==== Proof.KernelRow.lean ====
/-
  The kernel body's stored block, read at one element. A block holds 2048 pixels of one batch entry, 512 channels
  each, beside that batch entry's 512 weights. At pixel r, channel d the stored value depends only on row r of
  the block: the scores are weight · value along the row, their maximum and the sum of the shifted exponentials
  are lane reductions over the row, each re-broadcast along the row through a trailing unit axis, and the
  result is the row's attention output (`Cert.SoftmaxRow.rowAttn`).
-/
import proofs.«102182_j82755429859695_2_alg».proof.Proof.Gen.KernelIdeal.Skeleton
import proofs.«102182_j82755429859695_2_alg».proof.Proof.SoftmaxRow
import Idealize.ShloMosaic.Lib.Pipeline.Value
import Idealize.ShloMosaic.Lib.ValueIdx
import Idealize.ShloMosaic.PureOps.Ideal.Laws

noncomputable section

open scoped BigOperators

namespace Cert.KernelIdeal.Row

open Idealize.ShloMosaic Idealize.ShloMosaic.ValueIdx Cert.KernelIdeal Cert.KernelIdeal.Gen Cert.SoftmaxRow

/-- An index of a shape with a leading unit axis has first coordinate 0. -/
theorem eq_ix3_unit {n1 n2 : Nat} (j : (⟨3, ![1, n1, n2]⟩ : Shape).Idx) : j = ix3 (0 : Fin 1) (j 1) (j 2) := by
  funext c
  match c with
  | ⟨0, _⟩ => exact Fin.ext (by have h : (j 0).val < 1 := (j 0).isLt; show (j 0).val = 0; omega)
  | ⟨1, _⟩ => rfl
  | ⟨2, _⟩ => rfl

/-- The weights' one row broadcast down the 2048 pixels reads, at any pixel, the weight of the channel. -/
theorem bcastWeights_apply {α : Type} (x0 : S1x1x512.Idx → α) (h : S1x1x512.Broadcasts S1x2048x512) (r : Fin 2048) (k : Fin 512) :
    broadcastTo S1x2048x512 x0 h (ix3 (0 : Fin 1) r k) = x0 (ix3 (0 : Fin 1) (0 : Fin 1) k) :=
  broadcastTo_apply x0 h (ix3 (0 : Fin 1) r k) (ix3 (0 : Fin 1) (0 : Fin 1) k) (fun c => match c with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show k.val = if (512 : Nat) = 1 then 0 else k.val; rw [if_neg (by decide)])

/-- A per-pixel value given a trailing unit axis and broadcast along the channels reads, at (r, k), the value of pixel r. -/
theorem keepdims_apply {α : Type} (v : S1x2048.Idx → α) (h1 : S1x2048.ShapeCasts S1x2048x1) (h2 : S1x2048x1.Broadcasts S1x2048x512)
    (r : Fin 2048) (k : Fin 512) :
    broadcastTo S1x2048x512 (shapeCast S1x2048x1 v h1) h2 (ix3 (0 : Fin 1) r k) = v (ix2 (0 : Fin 1) r) :=
  (broadcastTo_apply (shapeCast S1x2048x1 v h1) h2 (ix3 (0 : Fin 1) r k) (ix3 (0 : Fin 1) r (0 : Fin 1)) (fun c => match c with
    | ⟨0, _⟩ => by show (0 : Nat) = if (1 : Nat) = 1 then 0 else _; rw [if_pos rfl]
    | ⟨1, _⟩ => by show r.val = if (2048 : Nat) = 1 then 0 else r.val; rw [if_neg (by decide)]
    | ⟨2, _⟩ => by show (0 : Nat) = if (1 : Nat) = 1 then 0 else _; rw [if_pos rfl])).trans
  (shapeCast_apply v h1 (ix3 (0 : Fin 1) r (0 : Fin 1)) (ix2 (0 : Fin 1) r) (by
    rw [Shape.rowMajor_val_two, Shape.rowMajor_val_three]
    show (0 : Nat) * 2048 + r.val = ((0 : Nat) * 2048 + r.val) * 1 + 0
    omega))

/-- The source index over pixel r with channel k inserted on the reduced axis. -/
theorem lift_lane (h : S1x2048x512.Reduces [2] S1x2048) (r : Fin 2048) (k : Fin 512) :
    h.lift (ix2 (0 : Fin 1) r) k = ix3 (0 : Fin 1) r k :=
  funext fun c => Fin.ext (by match c with | ⟨0, _⟩ => rfl | ⟨1, _⟩ => rfl | ⟨2, _⟩ => rfl)

/-- The lane maximum at pixel r: `max` folded over the row's channels from the accumulator's value. -/
theorem laneMax_apply (src : FVec Ideal S1x2048x512 .f32) (acc : BitVec 32) (h : S1x2048x512.Reduces [2] S1x2048)
    (hφ : FKind.Formats .f32) (hacc : acc = FKind.maximumf.neutral .f32 hφ) (r : Fin 2048) :
    multiReduction .maximumf [2] S1x2048 src acc h hφ hacc (ix2 (0 : Fin 1) r)
      = (Finset.univ : Finset (Fin 512)).fold max (Ideal.ofBits .f32 acc) (fun k => src (ix3 (0 : Fin 1) r k)) :=
  (Ideal.multiReduction_maximumf_single src acc h hφ hacc (ix2 (0 : Fin 1) r)).trans
    (congrArg (fun f => (Finset.univ : Finset (Fin 512)).fold max (Ideal.ofBits .f32 acc) f)
      (funext fun k => congrArg src (lift_lane h r k)))

/-- The lane sum at pixel r: the sum over the row's channels. -/
theorem laneSum_apply (src : FVec Ideal S1x2048x512 .f32) (acc : BitVec 32) (h : S1x2048x512.Reduces [2] S1x2048)
    (hφ : FKind.Formats .f32) (hacc : acc = FKind.add.neutral .f32 hφ) (r : Fin 2048) :
    multiReduction .add [2] S1x2048 src acc h hφ hacc (ix2 (0 : Fin 1) r) = ∑ k : Fin 512, src (ix3 (0 : Fin 1) r k) :=
  (Ideal.multiReduction_add_single src acc h hφ hacc (ix2 (0 : Fin 1) r)).trans
    (Finset.sum_congr rfl fun k _ => congrArg src (lift_lane h r k))

/-- From the scores `S` and a vector `Mv` that holds each row's greatest score along the row: exponentials of the
    shifted scores, their lane sum re-broadcast, the quotient, times the values `X` — at (r, d) the row's attention output. -/
theorem softmaxTail_apply (S Mv X : FVec Ideal S1x2048x512 .f32) (acc0 : BitVec 32) (h : S1x2048x512.Reduces [2] S1x2048)
    (hφ : FKind.Formats .f32) (ha0 : acc0 = FKind.add.neutral .f32 hφ)
    (h1 : S1x2048.ShapeCasts S1x2048x1) (h2 : S1x2048x1.Broadcasts S1x2048x512) (r : Fin 2048) (d : Fin 512)
    (hM : ∀ k : Fin 512, Mv (ix3 (0 : Fin 1) r k) = rowMax (fun k => S (ix3 (0 : Fin 1) r k))) :
    mulf (divf (exp (subf S Mv))
        (broadcastTo S1x2048x512 (shapeCast S1x2048x1 (multiReduction .add [2] S1x2048 (exp (subf S Mv)) acc0 h hφ ha0) h1) h2)) X
        (ix3 (0 : Fin 1) r d)
      = rowAttn (fun k => S (ix3 (0 : Fin 1) r k)) (fun k => X (ix3 (0 : Fin 1) r k)) d := by
  have hE : ∀ k : Fin 512, (exp (subf S Mv) : FVec Ideal S1x2048x512 .f32) (ix3 (0 : Fin 1) r k)
      = rowExp (fun k => S (ix3 (0 : Fin 1) r k)) k := fun k => by
    show Ideal.exp (S (ix3 (0 : Fin 1) r k) - Mv (ix3 (0 : Fin 1) r k)) = _
    rw [hM k]; rfl
  have hL := (keepdims_apply (multiReduction .add [2] S1x2048 (exp (subf S Mv)) acc0 h hφ ha0) h1 h2 r d).trans
    ((laneSum_apply (exp (subf S Mv)) acc0 h hφ ha0 r).trans (Finset.sum_congr rfl fun k _ => hE k))
  show Ideal.div ((exp (subf S Mv) : FVec Ideal S1x2048x512 .f32) (ix3 (0 : Fin 1) r d)) _ * X (ix3 (0 : Fin 1) r d) = _
  rw [hE d, hL]; rfl

/-- The whole chain from the scores: the lane maximum (from −∞'s pattern) re-broadcast is the `Mv` above. -/
theorem softmaxBlock_apply (S X : FVec Ideal S1x2048x512 .f32) (acc0 : BitVec 32) (h : S1x2048x512.Reduces [2] S1x2048)
    (hφ : FKind.Formats .f32) (ha1 : (0xFF800000#32 : BitVec 32) = FKind.maximumf.neutral .f32 hφ) (ha0 : acc0 = FKind.add.neutral .f32 hφ)
    (h1 : S1x2048.ShapeCasts S1x2048x1) (h2 : S1x2048x1.Broadcasts S1x2048x512) (r : Fin 2048) (d : Fin 512) :
    mulf (divf (exp (subf S (broadcastTo S1x2048x512 (shapeCast S1x2048x1 (multiReduction .maximumf [2] S1x2048 S 0xFF800000#32 h hφ ha1) h1) h2)))
        (broadcastTo S1x2048x512 (shapeCast S1x2048x1 (multiReduction .add [2] S1x2048
          (exp (subf S (broadcastTo S1x2048x512 (shapeCast S1x2048x1 (multiReduction .maximumf [2] S1x2048 S 0xFF800000#32 h hφ ha1) h1) h2))) acc0 h hφ ha0) h1) h2)) X
        (ix3 (0 : Fin 1) r d)
      = rowAttn (fun k => S (ix3 (0 : Fin 1) r k)) (fun k => X (ix3 (0 : Fin 1) r k)) d :=
  softmaxTail_apply S _ X acc0 h hφ ha0 h1 h2 r d (fun k =>
    (keepdims_apply (multiReduction .maximumf [2] S1x2048 S 0xFF800000#32 h hφ ha1) h1 h2 r k).trans
      (laneMax_apply S 0xFF800000#32 h hφ ha1 r))

/-- THE BODY'S STORED VALUE at pixel r, channel d of a block: the attention output of row r, its scores the batch
    entry's weights times the row's values. -/
theorem pay_apply (x1 : Vec Ideal S1x2048x512 .f32) (x0 : Vec Ideal S1x1x512 .f32) (r : Fin 2048) (d : Fin 512) :
    k0_pay1 x1 x0 (ix3 (0 : Fin 1) r d)
      = rowAttn (fun k => x0 (ix3 (0 : Fin 1) (0 : Fin 1) k) * x1 (ix3 (0 : Fin 1) r k)) (fun k => x1 (ix3 (0 : Fin 1) r k)) d := by
  have hx : shapeCast S1x2048x512 x1 shapeCasts_S1x2048x512_S1x2048x512 = x1 := shapeCast_self x1 _
  have hq : shapeCast S1x1x512 x0 shapeCasts_S1x1x512_S1x1x512 = x0 := shapeCast_self x0 _
  refine (softmaxBlock_apply
    (mulf (broadcastTo S1x2048x512 (shapeCast S1x1x512 x0 shapeCasts_S1x1x512_S1x1x512) broadcasts_S1x1x512_S1x2048x512)
      (shapeCast S1x2048x512 x1 shapeCasts_S1x2048x512_S1x2048x512))
    (shapeCast S1x2048x512 x1 shapeCasts_S1x2048x512_S1x2048x512) 0x00000000#32 reduces_S1x2048x512_S1x2048 (.inl rfl) rfl rfl
    shapeCasts_S1x2048_S1x2048x1 broadcasts_S1x2048x1_S1x2048x512 r d).trans ?_
  refine rowAttn_congr (fun k => ?_) (fun k => ?_) d
  · show broadcastTo S1x2048x512 (shapeCast S1x1x512 x0 shapeCasts_S1x1x512_S1x1x512) broadcasts_S1x1x512_S1x2048x512 (ix3 (0 : Fin 1) r k)
        * shapeCast S1x2048x512 x1 shapeCasts_S1x2048x512_S1x2048x512 (ix3 (0 : Fin 1) r k) = _
    rw [hx, hq, bcastWeights_apply]
  · rw [hx]

end Cert.KernelIdeal.Row

end
-- ==== Proof.Layout.lean ====
/-
  The two layouts of one image. The kernel's program flattens the pixel grid, (b, h, w, d) ↦ (b, 64·h + w, d), gives
  the weights a unit middle axis, (b, d) ↦ (b, 0, d), computes there, and unflattens the result. A reshape keeps
  the row-major position, so the attention output computed in the flattened layout and unflattened is the
  attention output in the reference's layout: the same rows, the same channels.
-/
import proofs.«102182_j82755429859695_2_alg».proof.Proof.SoftmaxRow
import Idealize.ShloMosaic.Lib.Pipeline.Value

noncomputable section

namespace Cert.SoftmaxRow

open Idealize.ShloMosaic Idealize.ShloMosaic.ValueIdx

/-- Attention computed on the flattened image and the weights with a unit axis, then unflattened, is attention on
    the image. -/
theorem reshaped_eq (Q : (⟨2, ![16, 512]⟩ : Shape).Idx → EReal) (X : (⟨4, ![16, 64, 64, 512]⟩ : Shape).Idx → EReal)
    (h1 : (⟨2, ![16, 512]⟩ : Shape).ShapeCasts ⟨3, ![16, 1, 512]⟩)
    (h2 : (⟨4, ![16, 64, 64, 512]⟩ : Shape).ShapeCasts ⟨3, ![16, 4096, 512]⟩)
    (h3 : (⟨3, ![16, 4096, 512]⟩ : Shape).ShapeCasts ⟨4, ![16, 64, 64, 512]⟩) :
    shapeCast ⟨4, ![16, 64, 64, 512]⟩ (attn3 (shapeCast ⟨3, ![16, 1, 512]⟩ Q h1) (shapeCast ⟨3, ![16, 4096, 512]⟩ X h2)) h3
      = attn4 Q X := by
  funext i
  obtain ⟨b, h, w, d, rfl⟩ : ∃ (b : Fin 16) (h w : Fin 64) (d : Fin 512), i = ix4 b h w d := ⟨i 0, i 1, i 2, i 3, eq_ix4 i⟩
  have hh : h.val < 64 := h.isLt
  have hw : w.val < 64 := w.isLt
  -- the flattened pixel
  let R : Fin 4096 := ⟨h.val * 64 + w.val, by omega⟩
  refine (shapeCast_apply _ h3 (ix4 b h w d) (ix3 b R d) (by
    rw [Shape.rowMajor_val_three, Shape.rowMajor_val_four]
    show (b.val * 4096 + (h.val * 64 + w.val)) * 512 + d.val = ((b.val * 64 + h.val) * 64 + w.val) * 512 + d.val
    omega)).trans ?_
  have hQ : ∀ k : Fin 512, shapeCast ⟨3, ![16, 1, 512]⟩ Q h1 (ix3 b (0 : Fin 1) k) = Q (ix2 b k) := fun k =>
    shapeCast_apply Q h1 (ix3 b (0 : Fin 1) k) (ix2 b k) (by
      rw [Shape.rowMajor_val_two, Shape.rowMajor_val_three]
      show b.val * 512 + k.val = (b.val * 1 + 0) * 512 + k.val
      omega)
  have hX : ∀ k : Fin 512, shapeCast ⟨3, ![16, 4096, 512]⟩ X h2 (ix3 b R k) = X (ix4 b h w k) := fun k =>
    shapeCast_apply X h2 (ix3 b R k) (ix4 b h w k) (by
      rw [Shape.rowMajor_val_four, Shape.rowMajor_val_three]
      show ((b.val * 64 + h.val) * 64 + w.val) * 512 + k.val = (b.val * 4096 + (h.val * 64 + w.val)) * 512 + k.val
      omega)
  show rowAttn (fun k => shapeCast ⟨3, ![16, 1, 512]⟩ Q h1 (ix3 b (0 : Fin 1) k) * shapeCast ⟨3, ![16, 4096, 512]⟩ X h2 (ix3 b R k))
      (fun k => shapeCast ⟨3, ![16, 4096, 512]⟩ X h2 (ix3 b R k)) d = attnAt Q X b h w d
  exact rowAttn_congr (fun k => congrArg₂ (· * ·) (hQ k) (hX k)) hX d

end Cert.SoftmaxRow

end
-- ==== Proof.KernelArray.lean ====
/-
  From blocks to the array. The grid has 16 × 2 points; point (b, p) works on pixels 2048·p … 2048·p + 2047 of batch
  entry b, beside that entry's 512 weights, and writes its block back to the same place of the output. What a point
  writes back is therefore a block of ONE function of the whole arrays — the attention output in the kernel's
  [16, 4096, 512] layout (`Cert.SoftmaxRow.attn3`) — and the blocks tile the output, so the output array ends
  holding that function. Around the region: before it the weights are the matrix product reshaped to [16, 1, 512]
  and the image is the argument reshaped to [16, 4096, 512]; after it the result is the output reshaped back to
  [16, 64, 64, 512].
-/
import proofs.«102182_j82755429859695_2_alg».proof.Proof.Gen.KernelIdeal.Frame
import proofs.«102182_j82755429859695_2_alg».proof.Proof.KernelRow
import proofs.«102182_j82755429859695_2_alg».proof.Proof.Layout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Array

open Idealize.ShloMosaic.ValueIdx Cert.KernelIdeal Cert.KernelIdeal.Gen Cert.KernelIdeal.Row Cert.SoftmaxRow

variable (m : (ℓ : Loc nD τ sig) → Buf (Elt Ideal) ℓ) (ρ : Dev nD → PrngReg)

theorem offsets_zero : (![0, 0, 0] : Fin 3 → Nat) = fun _ => 0 := funext fun a => by fin_cases a <;> rfl

/-- The printed index maps, decided over the 32 points: the weights' block follows the output's batch entry and
    sits at 0 on the other axes; the image's block is the output's; the channel axis is never cut; the output's
    block indices stay in their ranges. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (2 : Fin 3) = 0 ∧ win0_2.index t (0 : Fin 3) ≤ 15 ∧ win0_2.index t (1 : Fin 3) ≤ 1 :=
  (by decide +kernel : ∀ t : Fin grid0.N, _)

/-- Every (batch entry, half) is some point's output block. -/
theorem idx_onto : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-- The weights as the region finds them, [16, 1, 512]. -/
def weightsIn (c : Dev nD) : S16x1x512.Idx → EReal := V m c main_v1
/-- The image as the region finds it, [16, 4096, 512]. -/
def imageIn (c : Dev nD) : S16x4096x512.Idx → EReal := V m c main_v2

/-- An element of the weights' block at point `t` is the element of the weights at block index × block size + the
    coordinate inside the block, axis by axis. -/
theorem weights_blk (c : Dev nD) (t : Fin cfg0.N) (x : S1x1x512.Idx) (i : S16x1x512.Idx)
    (h0 : win0_0.index t (0 : Fin 3) * 1 + 1 * (x 0).val = (i 0).val)
    (h1 : win0_0.index t (1 : Fin 3) * 1 + 1 * (x 1).val = (i 1).val)
    (h2 : win0_0.index t (2 : Fin 3) * 512 + 1 * (x 2).val = (i 2).val) :
    (iblk m c 0 t : Vec Ideal S1x1x512 .f32) x = weightsIn m c i := by
  unfold iblk weightsIn
  rw [View.read_apply]
  show V m c main_v1 _ = V m c main_v1 _
  refine congrArg (V m c main_v1) (funext fun a => Fin.ext ?_)
  match a with
  | ⟨0, _⟩ => exact h0
  | ⟨1, _⟩ => exact h1
  | ⟨2, _⟩ => exact h2

/-- The same for the image's block. -/
theorem image_blk (c : Dev nD) (t : Fin cfg0.N) (x : S1x2048x512.Idx) (i : S16x4096x512.Idx)
    (h0 : win0_1.index t (0 : Fin 3) * 1 + 1 * (x 0).val = (i 0).val)
    (h1 : win0_1.index t (1 : Fin 3) * 2048 + 1 * (x 1).val = (i 1).val)
    (h2 : win0_1.index t (2 : Fin 3) * 512 + 1 * (x 2).val = (i 2).val) :
    (iblk m c 1 t : Vec Ideal S1x2048x512 .f32) x = imageIn m c i := by
  unfold iblk imageIn
  rw [View.read_apply]
  show V m c main_v2 _ = V m c main_v2 _
  refine congrArg (V m c main_v2) (funext fun a => Fin.ext ?_)
  match a with
  | ⟨0, _⟩ => exact h0
  | ⟨1, _⟩ => exact h1
  | ⟨2, _⟩ => exact h2

/-- The body's stored value at any index of the block (its leading coordinate is 0). -/
theorem pay_at (x1 : Vec Ideal S1x2048x512 .f32) (x0 : Vec Ideal S1x1x512 .f32) (j : S1x2048x512.Idx) :
    k0_pay1 x1 x0 j = rowAttn (fun k => x0 (ix3 (0 : Fin 1) (0 : Fin 1) k) * x1 (ix3 (0 : Fin 1) (j 1) k))
      (fun k => x1 (ix3 (0 : Fin 1) (j 1) k)) (j 2) :=
  (congrArg (k0_pay1 x1 x0) (eq_ix3_unit j)).trans (pay_apply x1 x0 (j 1) (j 2))

/-- A block's row as a row of the whole arrays: if the weights' block and the image's block read the whole arrays
    at batch entry `i 0` and pixel `i 1`, the row's attention output is the whole-array function at `i`. -/
theorem row_eq (W : S16x1x512.Idx → EReal) (X : S16x4096x512.Idx → EReal) (x0 : Vec Ideal S1x1x512 .f32)
    (x1 : Vec Ideal S1x2048x512 .f32) (j : S1x2048x512.Idx) (i : S16x4096x512.Idx)
    (hq : ∀ k : Fin 512, x0 (ix3 (0 : Fin 1) (0 : Fin 1) k) = W (ix3 (i 0) (0 : Fin 1) k))
    (hx : ∀ k : Fin 512, x1 (ix3 (0 : Fin 1) (j 1) k) = X (ix3 (i 0) (i 1) k))
    (hd : (j 2).val = (i 2).val) :
    rowAttn (fun k => x0 (ix3 (0 : Fin 1) (0 : Fin 1) k) * x1 (ix3 (0 : Fin 1) (j 1) k))
      (fun k => x1 (ix3 (0 : Fin 1) (j 1) k)) (j 2) = attn3 W X i := by
  have e : (j 2 : Fin 512) = i 2 := Fin.ext hd
  show _ = rowAttn (fun k => W (ix3 (i 0) (0 : Fin 1) k) * X (ix3 (i 0) (i 1) k)) (fun k => X (ix3 (i 0) (i 1) k)) (i 2)
  rw [← e]
  exact rowAttn_congr (fun k => congrArg₂ (· * ·) (hq k) (hx k)) hx (j 2)

/-- WHAT POINT `t` WRITES BACK is block `t` of the attention output of the arrays as the region finds them. -/
theorem flushed_eq (c : Dev nD) (t : Fin cfg0.N) :
    (dats m 0 c).flushed 2 t
      = ((cfg0.win 2).blk t).view.read (Elt Ideal) (attn3 (weightsIn m c) (imageIn m c)) := by
  show (cfg0.win 2).cut (grid0.coords t) ((dats m 0 c).after 2 t) = _
  rw [after0_2]
  unfold out0_2
  rw [View.canon_unit_zero offsets_zero]
  simp only [View.ld_unit_zero (S := S1x2048x512) offsets_zero, View.ld_unit_zero (S := S1x1x512) offsets_zero]
  obtain ⟨e0, e1, e2, e3, e4, e5, e6, e7, e8⟩ := idx_facts t
  funext j
  refine (pay_at (iblk m c 1 t) (iblk m c 0 t) j).trans ?_
  rw [View.read_apply]
  have hj0 : (j 0).val < 1 := (j 0).isLt
  refine row_eq (weightsIn m c) (imageIn m c) (iblk m c 0 t) (iblk m c 1 t) j (((cfg0.win 2).blk t).view.emb j)
    (fun k => weights_blk m c t (ix3 (0 : Fin 1) (0 : Fin 1) k) _ ?_ ?_ ?_)
    (fun k => image_blk m c t (ix3 (0 : Fin 1) (j 1) k) _ ?_ ?_ ?_) ?_
  · show win0_0.index t (0 : Fin 3) * 1 + 1 * 0 = win0_2.index t (0 : Fin 3) * 1 + 1 * (j 0).val; omega
  · show win0_0.index t (1 : Fin 3) * 1 + 1 * 0 = 0; omega
  · show win0_0.index t (2 : Fin 3) * 512 + 1 * k.val = k.val; omega
  · show win0_1.index t (0 : Fin 3) * 1 + 1 * 0 = win0_2.index t (0 : Fin 3) * 1 + 1 * (j 0).val; omega
  · show win0_1.index t (1 : Fin 3) * 2048 + 1 * (j 1).val = win0_2.index t (1 : Fin 3) * 2048 + 1 * (j 1).val; omega
  · show win0_1.index t (2 : Fin 3) * 512 + 1 * k.val = k.val; omega
  · show (j 2).val = win0_2.index t (2 : Fin 3) * 512 + 1 * (j 2).val; omega

/-- An index of the output array is in point `t`'s block iff each coordinate is in the block's range on its axis. -/
theorem mem_blk (t : Fin cfg0.N) (i : S16x4096x512.Idx) :
    i ∈ ((cfg0.win 2).blk t).view.set ↔ ∀ a : Fin 3, win0_2.index t a * S1x2048x512.size a ≤ (i a).val
      ∧ (i a).val < win0_2.index t a * S1x2048x512.size a + S1x2048x512.size a := by
  show i ∈ ((View.whole main_v3).slice (win0_2.rect t)).set ↔ _
  rw [View.set_slice_whole, Rect.mem_set_unit]
  exact Iff.rfl

/-- The blocks tile the output: pixel r of batch entry b lies in the block of point (b, r / 2048). -/
theorem cover (i : S16x4096x512.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 512 := (i 2).isLt
  obtain ⟨t, ht⟩ := idx_onto ⟨(i 0).val, hi0⟩ ⟨(i 1).val / 2048, by omega⟩
  have q0 : win0_2.index t (0 : Fin 3) = (i 0).val := congrFun ht 0
  have q1 : win0_2.index t (1 : Fin 3) = (i 1).val / 2048 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 512 ≤ (i 2).val ∧ (i 2).val < win0_2.index t (2 : Fin 3) * 512 + 512; omega

/-- THE OUTPUT ARRAY after the region: the attention output of the arrays as the region finds them. -/
theorem final (c : Dev nD) : (dats m 0 c).arrAt 2 cfg0.N = attn3 (weightsIn m c) (imageIn m c) :=
  (dats m 0 c).arrAt_eq_of_cover 2 (attn3 (weightsIn m c) (imageIn m c)) (fun t _ => flushed_eq m c t) cover

/-! ## Around the region -/

/-- The weights the region finds: the matrix product of the two small arguments, given a unit middle axis. -/
theorem V_weights (c : Dev nD) : weightsIn m c
    = shapeCast S16x1x512 (Host.dotGeneral (F := Ideal) (φ₁ := .f32) (φ₂ := .f32) dot_S16x512_S512x512_S16x512_1_0_0_1_n_n (some .fp32)
        (m ((c : Thread nD τ).loc main_arg1)) (m ((c : Thread nD τ).loc main_arg2))) shapeCasts_S16x512_S16x1x512 := by
  unfold weightsIn
  show StableHlo.after hostOps0 (fun b => m (c, b)) (Proc.devRef .tc main_v1) = _
  after_results; rfl

/-- The image the region finds: the first argument with its pixel grid flattened. -/
theorem V_image (c : Dev nD) : imageIn m c
    = shapeCast S16x4096x512 (m ((c : Thread nD τ).loc main_arg0)) shapeCasts_S16x64x64x512_S16x4096x512 := by
  unfold imageIn
  show StableHlo.after hostOps0 (fun b => m (c, b)) (Proc.devRef .tc main_v2) = _
  after_results; rfl

/-- The program's result as a function of the arguments: attention over the channels of every pixel, the weights
    the product of the two small arguments. -/
def result (c : Dev nD) : S16x64x64x512.Idx → EReal :=
  attn4 (Host.dotGeneral (F := Ideal) (φ₁ := .f32) (φ₂ := .f32) dot_S16x512_S512x512_S16x512_1_0_0_1_n_n (some .fp32)
      (m ((c : Thread nD τ).loc main_arg1)) (m ((c : Thread nD τ).loc main_arg2)))
    (m ((c : Thread nD τ).loc main_arg0))

/-- After the region the result is the output array unflattened. -/
theorem tail_eq (c : Dev nD) :
    (Pipeline.afterTail₀ cfgs (dats m) 0 (V0 m) [hostOps1] c main_v4 : S16x64x64x512.Idx → EReal)
      = shapeCast S16x64x64x512 (attn3 (weightsIn m c) (imageIn m c)) shapeCasts_S16x4096x512_S16x64x64x512 := by
  unfold Pipeline.afterTail₀
  show StableHlo.after hostOps1 _ (Proc.devRef .tc main_v4) = _
  after_results
  have hw := (Pipeline.withArrays_arr spec0 launch0.win.arr_inj c (V0 m c) (fun w => (dats m 0 c).arrAt w cfg0.N) 2).trans (final m c)
  exact congrArg (fun a => shapeCast S16x64x64x512 a shapeCasts_S16x4096x512_S16x64x64x512) hw

/-- The result buffer after the whole program. -/
theorem result_eq (c : Dev nD) :
    (Pipeline.afterTail₀ cfgs (dats m) 0 (V0 m) [hostOps1] c main_v4 : S16x64x64x512.Idx → EReal) = result m c := by
  refine (tail_eq m c).trans ?_
  rw [V_weights, V_image]
  exact reshaped_eq _ _ _ _ _

/-- THE RUN, READ: every weakly fair execution ends with the result buffer at `result` and the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Array

end
-- ==== Proof.RefRow.lean ====
/-
  The reference read at one element. Its stages, in order: the per-batch weights (a matrix product), broadcast
  over the pixels; the scores weight · value; each pixel's greatest score over its 512 channels (a host
  reduction from −∞'s pattern, then once more `max` with −∞, which is idle); the shifted exponentials; their
  sum from the zero pattern; the quotient; times the values. At pixel (b, h, w), channel d this is the
  attention output of that pixel's row (`Cert.SoftmaxRow.attnAt`) with the weights left as the product's own term.
-/
import proofs.«102182_j82755429859695_2_alg».proof.Proof.Gen.ReferenceIdeal.Read
import proofs.«102182_j82755429859695_2_alg».proof.Proof.SoftmaxRow
import Idealize.ShloMosaic.PureOps.Reduce

noncomputable section

open scoped BigOperators

namespace Cert.ReferenceIdeal.Row

open Idealize.ShloMosaic Idealize.ShloMosaic.ValueIdx Cert.ReferenceIdeal Cert.ReferenceIdeal.Gen Cert.ReferenceIdeal.Read Cert.SoftmaxRow

variable (x0 : (⟨S16x64x64x512, .f32⟩ : BufTy).Contents (Elt Ideal)) (x1 : (⟨S16x512, .f32⟩ : BufTy).Contents (Elt Ideal))
  (x2 : (⟨S512x512, .f32⟩ : BufTy).Contents (Elt Ideal))

/-- The scores along the channels of pixel (b, h, w), as the reference's product stage holds them. -/
abbrev sc (b : Fin 16) (h w : Fin 64) : Fin 512 → EReal := fun k => val_main_v3 (F := Ideal) x0 x1 x2 (ix4 b h w k)

/-- The weights are broadcast over the pixels: at (b, h, w, k) the weight (b, k). -/
theorem idx_weights (b : Fin 16) (h w : Fin 64) (k : Fin 512) : idx_main_v1 (idx_main_v2 (ix4 b h w k)) = ix2 b k :=
  funext fun a => Fin.ext (by match a with | ⟨0, _⟩ => rfl | ⟨1, _⟩ => rfl)

/-- A per-pixel value given a trailing unit axis and broadcast along the channels: at (b, h, w, k) the pixel (b, h, w). -/
theorem idx_pixel_max (b : Fin 16) (h w : Fin 64) (k : Fin 512) : idx_main_v7 (idx_main_v8 (ix4 b h w k)) = ix3 b h w :=
  funext fun a => Fin.ext (by match a with | ⟨0, _⟩ => rfl | ⟨1, _⟩ => rfl | ⟨2, _⟩ => rfl)
theorem idx_pixel_sum (b : Fin 16) (h w : Fin 64) (k : Fin 512) : idx_main_v12 (idx_main_v13 (ix4 b h w k)) = ix3 b h w :=
  funext fun a => Fin.ext (by match a with | ⟨0, _⟩ => rfl | ⟨1, _⟩ => rfl | ⟨2, _⟩ => rfl)
/-- The sum's k-th term sits at channel k of the pixel. -/
theorem idx_sum_term (b : Fin 16) (h w : Fin 64) (k : Fin 512) : idx_main_v11 (ix3 b h w) k = ix4 b h w k :=
  funext fun a => Fin.ext (by match a with | ⟨0, _⟩ => rfl | ⟨1, _⟩ => rfl | ⟨2, _⟩ => rfl | ⟨3, _⟩ => rfl)

/-- The score of channel k at pixel (b, h, w): weight (b, k) times the value. -/
theorem scores_apply (b : Fin 16) (h w : Fin 64) (k : Fin 512) :
    val_main_v3 (F := Ideal) x0 x1 x2 (ix4 b h w k) = val_main_v0 (F := Ideal) x1 x2 (ix2 b k) * x0 (ix4 b h w k) := by
  rw [val_main_v3_apply, val_main_v2_apply, val_main_v1_apply, idx_weights]; rfl

/-- The source index over pixel (b, h, w) with channel k inserted on the reduced axis. -/
theorem lift_channel (hr : S16x64x64x512.Reduces [3] S16x64x64) (b : Fin 16) (h w : Fin 64) (k : Fin 512) :
    hr.lift (ix3 b h w) k = ix4 b h w k :=
  funext fun c => Fin.ext (by match c with | ⟨0, _⟩ => rfl | ⟨1, _⟩ => rfl | ⟨2, _⟩ => rfl | ⟨3, _⟩ => rfl)

/-- The host's reduction with `max` over the channels, at pixel (b, h, w): the row's greatest score. -/
theorem hostMax_apply (b : Fin 16) (h w : Fin 64) :
    val_main_v4 (F := Ideal) x0 x1 x2 (ix3 b h w) = rowMax (sc x0 x1 x2 b h w) := by
  have hr : S16x64x64x512.Reduces [3] S16x64x64 := by decide
  unfold val_main_v4 sc
  generalize val_main_v3 (F := Ideal) x0 x1 x2 = y
  refine (Host.reduce_eq_fold_single (FloatOps.maximumf (F := Ideal) (φ := .f32)) y (val_main_cst (F := Ideal))
    reducesTo_S16x64x64x512_S16x64x64_d3 hr h_S_ (ix3 b h w)).trans ?_
  show (Finset.univ : Finset (Fin 512)).fold max (Ideal.ofBits .f32 0xFF800000#32) (y ∘ hr.lift (ix3 b h w)) = _
  exact congrArg (fun f => (Finset.univ : Finset (Fin 512)).fold max (Ideal.ofBits .f32 0xFF800000#32) f)
    (funext fun k => congrArg y (lift_channel hr b h w k))

/-- One more `max` with −∞ leaves the row's greatest score. -/
theorem max_apply (b : Fin 16) (h w : Fin 64) :
    val_main_v6 (F := Ideal) x0 x1 x2 (ix3 b h w) = rowMax (sc x0 x1 x2 b h w) := by
  rw [val_main_v6_apply, val_main_v5_apply, val_main_cst_0_apply, hostMax_apply]
  exact max_init_rowMax _

/-- The shifted exponential of channel k at pixel (b, h, w). -/
theorem exp_apply (b : Fin 16) (h w : Fin 64) (k : Fin 512) :
    val_main_v10 (F := Ideal) x0 x1 x2 (ix4 b h w k) = rowExp (sc x0 x1 x2 b h w) k := by
  rw [val_main_v10_apply, val_main_v9_apply, val_main_v8_apply, val_main_v7_apply, idx_pixel_max, max_apply]
  rfl

/-- The normalizer at pixel (b, h, w). -/
theorem sum_apply (b : Fin 16) (h w : Fin 64) :
    val_main_v11 (F := Ideal) x0 x1 x2 (ix3 b h w) = rowSum (sc x0 x1 x2 b h w) := by
  rw [val_main_v11_apply]
  simp only [idx_sum_term, exp_apply]
  exact zero_add_rowSum _

/-- THE REFERENCE'S RESULT at pixel (b, h, w), channel d. -/
theorem result_apply (b : Fin 16) (h w : Fin 64) (d : Fin 512) :
    val_main_v15 (F := Ideal) x0 x1 x2 (ix4 b h w d) = attnAt (val_main_v0 (F := Ideal) x1 x2) x0 b h w d := by
  rw [val_main_v15_apply, val_main_v14_apply, val_main_v13_apply, val_main_v12_apply, idx_pixel_sum, sum_apply, exp_apply]
  show rowAttn (sc x0 x1 x2 b h w) (fun k => x0 (ix4 b h w k)) d = _
  exact rowAttn_congr (fun k => scores_apply x0 x1 x2 b h w k) (fun _ => rfl) d

/-- The reference's result array is the attention output of the image under the product's weights. -/
theorem result_eq : val_main_v15 (F := Ideal) x0 x1 x2 = attn4 (val_main_v0 (F := Ideal) x1 x2) x0 := by
  funext i
  obtain ⟨b, h, w, d, rfl⟩ : ∃ (b : Fin 16) (h w : Fin 64) (d : Fin 512), i = ix4 b h w d := ⟨i 0, i 1, i 2, i 3, eq_ix4 i⟩
  exact result_apply x0 x1 x2 b h w d

end Cert.ReferenceIdeal.Row

end
-- ==== Proof.Weights.lean ====
/-
  The per-batch weights are one matrix product on both sides: q[b, d] = Σ_j style[b, j] · weight[j, d]. The kernel's
  program asks for the highest contraction precision and the reference for the default; on the extended reals a
  product is exact whatever the precision, so the two are the same sum.
-/
import proofs.«102182_j82755429859695_2_alg».proof.Proof.Gen.KernelIdeal
import proofs.«102182_j82755429859695_2_alg».proof.Proof.Gen.ReferenceIdeal.Read
import Idealize.ShloMosaic.PureOps.Ideal.Laws

noncomputable section

namespace Cert.Weights

open Idealize.ShloMosaic

/-- The kernel program's product of the two small arguments is the reference's. -/
theorem product_eq (a1 : (⟨2, ![16, 512]⟩ : Shape).Idx → EReal) (a2 : (⟨2, ![512, 512]⟩ : Shape).Idx → EReal) :
    Host.dotGeneral (F := Ideal) (φ₁ := .f32) (φ₂ := .f32) Cert.KernelIdeal.dot_S16x512_S512x512_S16x512_1_0_0_1_n_n (some .fp32) a1 a2
      = Cert.ReferenceIdeal.Read.val_main_v0 (F := Ideal) a1 a2 := by
  funext j
  unfold Cert.ReferenceIdeal.Read.val_main_v0
  simp only [Host.dotGeneral]
  rw [Ideal.dotGeneral_apply, Ideal.dotGeneral_apply]
  rfl

end Cert.Weights

end
-- ==== Proof.lean ====
/-
  Channel attention over an image, kernel against reference, on the extended reals.
  Both programs compute, for every pixel (b, h, w) of a [16, 64, 64, 512] image x and per-batch weights
  q = style · weight, the softmax over the 512 channels of the scores q[b, ·] · x[b, h, w, ·] (greatest score
  from −∞, shifted exponentials, their sum from 0, the quotient) times x. The kernel's program flattens the
  pixel grid, works block by block (2048 pixels of one batch entry at a time), and unflattens the result; the
  reference works on the whole arrays and takes one more maximum with −∞. The proof reads both results at one
  element as the same row function (`Cert.SoftmaxRow.rowAttn`): the kernel's through its body's stored value,
  the blocks' tiling of the output and the reshapes around the region; the reference's through its stages one at a
  time. No property of the inputs is used: the two sides apply the same operations in the same order, and the
  only laws are that a maximum folded from −∞ absorbs one more −∞ and that a sum started from 0 is the sum.
-/
import proofs.«102182_j82755429859695_2_alg».proof.Defs
import proofs.«102182_j82755429859695_2_alg».proof.Proof.Gen.Kernel
import proofs.«102182_j82755429859695_2_alg».proof.Proof.Gen.Kernel.Skeleton
import proofs.«102182_j82755429859695_2_alg».proof.Proof.Gen.Kernel.Launch
import proofs.«102182_j82755429859695_2_alg».proof.Proof.Gen.Kernel.Points
import proofs.«102182_j82755429859695_2_alg».proof.Proof.Gen.Kernel.Frame
import proofs.«102182_j82755429859695_2_alg».proof.Proof.Gen.KernelIdeal
import proofs.«102182_j82755429859695_2_alg».proof.Proof.Gen.KernelIdeal.Skeleton
import proofs.«102182_j82755429859695_2_alg».proof.Proof.Gen.KernelIdeal.Launch
import proofs.«102182_j82755429859695_2_alg».proof.Proof.Gen.KernelIdeal.Points
import proofs.«102182_j82755429859695_2_alg».proof.Proof.Gen.KernelIdeal.Frame
import proofs.«102182_j82755429859695_2_alg».proof.Proof.Gen.ReferenceIdeal
import proofs.«102182_j82755429859695_2_alg».proof.Proof.Gen.Pre_finite_inputs
import proofs.«102182_j82755429859695_2_alg».proof.Proof.Gen.ReferenceIdeal.Run
import proofs.«102182_j82755429859695_2_alg».proof.Proof.Gen.ReferenceIdeal.Read
import proofs.«102182_j82755429859695_2_alg».proof.Proof.KernelArray
import proofs.«102182_j82755429859695_2_alg».proof.Proof.RefRow
import proofs.«102182_j82755429859695_2_alg».proof.Proof.Weights
import Idealize.ShloMosaic.Adequacy
import Idealize.ShloMosaic.Init

noncomputable section

namespace Cert.Proof

open Idealize.ShloMosaic Idealize.ShloMosaic.TcCoe Idealize.SL.Sem

/-- The three programs run, fault nowhere, and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result buffer at the attention output of the arguments. -/
theorem algebraic : Cert.algebraic_KernelIdeal_ReferenceIdeal := by
  intro m ρ m' ρ' _ hagree
  refine ⟨fun c => Cert.KernelIdeal.Array.result m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Row.result_eq, (hagree c).1, (hagree c).2.1, (hagree c).2.2]
  show _ = Cert.KernelIdeal.Array.result m c
  unfold Cert.KernelIdeal.Array.result
  rw [Cert.Weights.product_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
